-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S8192x4096 : Shape := ⟨2, ![8192, 4096]⟩
abbrev S1x4096 : Shape := ⟨2, ![1, 4096]⟩
abbrev S1024x512 : Shape := ⟨2, ![1024, 512]⟩
abbrev S1x1024 : Shape := ⟨2, ![1, 1024]⟩
abbrev S16x512 : Shape := ⟨2, ![16, 512]⟩
abbrev S1024x16 : Shape := ⟨2, ![1024, 16]⟩
abbrev S1024x1024 : Shape := ⟨2, ![1024, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S16x512, .f32⟩
  | .local _ .vmem, ⟨7, _⟩ => ⟨S16x512, .f32⟩
  | .local _ .vmem, ⟨8, _⟩ => ⟨S1024x16, .f32⟩
  | .local _ .vmem, ⟨9, _⟩ => ⟨S1024x16, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S16x512_S16x512_0_0 : ∀ a, (![0, 0] : Fin 2 → Nat) a + S16x512.size a ≤ S16x512.size a
  h_S16x512 : 0 < S16x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x512_S1024x512_S1024x1024_1_1_0_0_n_n_wf : DotDims.WF S1024x512 S1024x512 S1024x1024 [1] [1] [0] [0] [] []
  dot_S1024x512_S16x512_S1024x16_1_1_0_0_n_n_wf : DotDims.WF S1024x512 S16x512 S1024x16 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x4096.size a
  hwx0_3 : ∀ i : grid0.Coords, EltTy.bits .f32 = 32 ∨ (Rect.block (s := S16x4096) S16x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S4096x16.size a
  hwx0_4 : ∀ i : grid0.Coords, EltTy.bits .f32 = 32 ∨ (Rect.block (s := S4096x16) S1024x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x512_S16x512_S1024x16_1_1_0_0_n_n : DotDims S1024x512 S16x512 S1024x16 where
  lhsContracting := [1]
  rhsContracting := [1]
  lhsNonContracting := [0]
  rhsNonContracting := [0]
  lhsBatch := []
  rhsBatch := []
  wf := dot_S1024x512_S16x512_S1024x16_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4x2048x16, .f32⟩
  | .hbm, ⟨10, _⟩ => ⟨S4x2048x4096, .f32⟩
  | .hbm, ⟨11, _⟩ => ⟨S_, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Pieces.lean ====
/-
  What one visit of the kernel body leaves behind, as values.

  The body keeps two running accumulators between visits — the base product's [1024,1024] tile and the low-rank
  projection's [1024,16] tile — and on the last contraction block also writes the output tile. Each of these buffers
  is written by covering stores only, so what it holds after the body is the last store's value, a pure function of
  the blocks the body loaded and (except on a first block, where the accumulators are first zeroed and read back) of
  what the accumulators held before. The three cases are: a first contraction block (A), a middle one (B), the last (C).
  All statements hold at every float instance.
-/
import proofs.«173166_j17635135717659_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Pieces

open Cert.KernelIdeal Cert.KernelIdeal.Gen

variable {F : FTy → Type} [FloatOps F]

/-- Every load and store of the body starts at the origin of its buffer. -/
theorem hz : (![0, 0] : Fin 2 → Nat) = fun _ => 0 := funext fun a => by fin_cases a <;> rfl

/-- First block, base accumulator: zeroed, read back, and this block's product of the x tile with the weight tile added. -/
theorem sout_A_0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S16x512 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i) (x0 : Vec F S1024x512 .f32) (x1 : Vec F S1024x512 .f32) (x2 : Vec F S1x1024 .f32) (x3 : Vec F S16x512 .f32) (x4 : Vec F S1024x16 .f32) :
    sout0_A_0 c i arg3 harg3 arg4 harg4 arg5 harg5 arg6 harg6 arg7 harg7 arg8 harg8 arg9 harg9 arg10 harg10 hc0 hc1 x0 x1 x2 x3 x4 = k0_pay4 x0 x1 k0_pay1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1024) hz]
  simp only [View.readCov_unit_zero (S := S1024x1024) _ hz, View.readCov_unit_zero (S := S1024x16) _ hz, View.readAt_eq_ld, harg3.read_unread, harg4.read_unread, harg5.read_unread, harg6.read_unread, harg7.read_unread, harg8.read_unread, harg9.read_unread, harg10.read_unread, View.ld_unit_zero (S := S1024x512) hz, View.ld_unit_zero (S := S1024x1024) hz, View.ld_unit_zero (S := S16x512) hz, View.ld_unit_zero (S := S1024x16) hz, View.ld_unit_zero (S := S1x1024) hz]

/-- First block, low-rank accumulator: zeroed, read back, and this block's product of the x tile with the A tile added. -/
theorem sout_A_1 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S16x512 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i) (x0 : Vec F S1024x512 .f32) (x1 : Vec F S1024x512 .f32) (x2 : Vec F S1x1024 .f32) (x3 : Vec F S16x512 .f32) (x4 : Vec F S1024x16 .f32) :
    sout0_A_1 c i arg3 harg3 arg4 harg4 arg5 harg5 arg6 harg6 arg7 harg7 arg8 harg8 arg9 harg9 arg10 harg10 hc0 hc1 x0 x1 x2 x3 x4 = k0_pay5 x0 x3 k0_pay2 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz]
  simp only [View.readCov_unit_zero (S := S1024x1024) _ hz, View.readCov_unit_zero (S := S1024x16) _ hz, View.readAt_eq_ld, harg3.read_unread, harg4.read_unread, harg5.read_unread, harg6.read_unread, harg7.read_unread, harg8.read_unread, harg9.read_unread, harg10.read_unread, View.ld_unit_zero (S := S1024x512) hz, View.ld_unit_zero (S := S1024x1024) hz, View.ld_unit_zero (S := S16x512) hz, View.ld_unit_zero (S := S1024x16) hz, View.ld_unit_zero (S := S1x1024) hz]

/-- Middle block, base accumulator: what it held, plus this block's product. -/
theorem sout_B_0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S16x512 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i) (x0 : Vec F S1024x512 .f32) (x1 : Vec F S1024x512 .f32) (x2 : Vec F S1x1024 .f32) (x3 : Vec F S16x512 .f32) (x4 : Vec F S1024x16 .f32) (xs0 : Vec F S1024x1024 .f32) (xs1 : Vec F S1024x16 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S1024x1024) hz]
  simp only [View.readCov_unit_zero (S := S1024x1024) _ hz, View.readCov_unit_zero (S := S1024x16) _ hz, View.readAt_eq_ld, harg3.read_unread, harg4.read_unread, harg5.read_unread, harg6.read_unread, harg7.read_unread, harg8.read_unread, harg9.read_unread, harg10.read_unread, View.ld_unit_zero (S := S1024x512) hz, View.ld_unit_zero (S := S1024x1024) hz, View.ld_unit_zero (S := S16x512) hz, View.ld_unit_zero (S := S1024x16) hz, View.ld_unit_zero (S := S1x1024) hz]

/-- Middle block, low-rank accumulator: what it held, plus this block's product. -/
theorem sout_B_1 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S16x512 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i) (x0 : Vec F S1024x512 .f32) (x1 : Vec F S1024x512 .f32) (x2 : Vec F S1x1024 .f32) (x3 : Vec F S16x512 .f32) (x4 : Vec F S1024x16 .f32) (xs0 : Vec F S1024x1024 .f32) (xs1 : Vec F S1024x16 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x3 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero (S := S1024x16) hz]
  simp only [View.readCov_unit_zero (S := S1024x1024) _ hz, View.readCov_unit_zero (S := S1024x16) _ hz, View.readAt_eq_ld, harg3.read_unread, harg4.read_unread, harg5.read_unread, harg6.read_unread, harg7.read_unread, harg8.read_unread, harg9.read_unread, harg10.read_unread, View.ld_unit_zero (S := S1024x512) hz, View.ld_unit_zero (S := S1024x1024) hz, View.ld_unit_zero (S := S16x512) hz, View.ld_unit_zero (S := S1024x16) hz, View.ld_unit_zero (S := S1x1024) hz]

/-- Last block, base accumulator: what it held, plus this block's product. -/
theorem sout_C_0 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S16x512 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1024x512 .f32) (x1 : Vec F S1024x512 .f32) (x2 : Vec F S1x1024 .f32) (x3 : Vec F S16x512 .f32) (x4 : Vec F S1024x16 .f32) (xs0 : Vec F S1024x1024 .f32) (xs1 : Vec F S1024x16 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1024x1024) hz]
  simp only [View.readCov_unit_zero (S := S1024x1024) _ hz, View.readCov_unit_zero (S := S1024x16) _ hz, View.readAt_eq_ld, harg3.read_unread, harg4.read_unread, harg5.read_unread, harg6.read_unread, harg7.read_unread, harg8.read_unread, harg9.read_unread, harg10.read_unread, View.ld_unit_zero (S := S1024x512) hz, View.ld_unit_zero (S := S1024x1024) hz, View.ld_unit_zero (S := S16x512) hz, View.ld_unit_zero (S := S1024x16) hz, View.ld_unit_zero (S := S1x1024) hz]

/-- Last block, low-rank accumulator: what it held, plus this block's product. -/
theorem sout_C_1 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S16x512 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1024x512 .f32) (x1 : Vec F S1024x512 .f32) (x2 : Vec F S1x1024 .f32) (x3 : Vec F S16x512 .f32) (x4 : Vec F S1024x16 .f32) (xs0 : Vec F S1024x1024 .f32) (xs1 : Vec F S1024x16 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x3 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1024x16) hz]
  simp only [View.readCov_unit_zero (S := S1024x1024) _ hz, View.readCov_unit_zero (S := S1024x16) _ hz, View.readAt_eq_ld, harg3.read_unread, harg4.read_unread, harg5.read_unread, harg6.read_unread, harg7.read_unread, harg8.read_unread, harg9.read_unread, harg10.read_unread, View.ld_unit_zero (S := S1024x512) hz, View.ld_unit_zero (S := S1024x1024) hz, View.ld_unit_zero (S := S16x512) hz, View.ld_unit_zero (S := S1024x16) hz, View.ld_unit_zero (S := S1x1024) hz]

/-- Last block, output tile: the finished base accumulator plus the bias row, plus twice the product of the finished low-rank accumulator with the B tile — both accumulators read back after this block's update. -/
theorem out_C_5 (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S1x1024 .f32) (harg5 : arg5.IsWhole) (arg6 : Memref sig .tc .vmem S16x512 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i) (x0 : Vec F S1024x512 .f32) (x1 : Vec F S1024x512 .f32) (x2 : Vec F S1x1024 .f32) (x3 : Vec F S16x512 .f32) (x4 : Vec F S1024x16 .f32) (xs0 : Vec F S1024x1024 .f32) (xs1 : Vec F S1024x16 .f32) :
    out0_C_5 c i arg3 harg3 arg4 harg4 arg5 harg5 arg6 harg6 arg7 harg7 arg8 harg8 arg9 harg9 arg10 harg10 hc0 hc1 x0 x1 x2 x3 x4 xs0 xs1 = k0_pay6 x4 (k0_pay5 x0 x3 xs1) (k0_pay4 x0 x1 xs0) x2 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero (S := S1024x1024) hz]
  simp only [View.readCov_unit_zero (S := S1024x1024) _ hz, View.readCov_unit_zero (S := S1024x16) _ hz, View.readAt_eq_ld, harg3.read_unread, harg4.read_unread, harg5.read_unread, harg6.read_unread, harg7.read_unread, harg8.read_unread, harg9.read_unread, harg10.read_unread, View.ld_unit_zero (S := S1024x512) hz, View.ld_unit_zero (S := S1024x1024) hz, View.ld_unit_zero (S := S16x512) hz, View.ld_unit_zero (S := S1024x16) hz, View.ld_unit_zero (S := S1x1024) hz]

end Cert.KernelIdeal.Pieces

end
-- ==== Proof.Steps.lean ====
/-
  The recurrence the two accumulators and the output tile obey from one grid position to the next.

  At a position on a first contraction block both accumulators are the block's product added to zero; at any later
  position each is the block's product added to what the position before left; and at a position on the last block the
  output tile is the bias-and-scale combination of the two accumulators as that position leaves them. The blocks are
  the tiles of the arrays at the position. All statements hold at every float instance.
-/
import proofs.«173166_j17635135717659_1_alg».proof.Proof.Pieces

noncomputable section

open Idealize.ShloMosaic Idealize.ShloMosaic.TcCoe Idealize.SL.Sem Idealize.ShloMosaic.Tactic
open Idealize.ShloMosaic.Pipeline (Dat)

namespace Cert.KernelIdeal.Steps

open Cert.KernelIdeal Cert.KernelIdeal.Gen

open Cert.KernelIdeal.Pieces

variable {F : FTy → Type} [FloatOps F]
variable (m : (ℓ : Loc nD τ sig) → Buf (Elt F) ℓ)

/-- On a first contraction block: zero plus the block's products. -/
theorem step_first (c : Dev nD) (t : Fin cfg0.N) (h0 : t.val % 8 = 0) :
    (outsAt0 m c t.val t.isLt).2.1 = k0_pay4 (iblk m c 0 t) (iblk m c 1 t) k0_pay1
    ∧ (outsAt0 m c t.val t.isLt).2.2 = k0_pay5 (iblk m c 0 t) (iblk m c 3 t) k0_pay2 := by
  have h1 : ¬t.val % 8 = 7 := by omega
  rw [outsAt0_A m c t h0 h1]
  dsimp only
  exact ⟨sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)⟩

/-- On a later contraction block: what the position before left, plus the block's products. -/
theorem step_later (c : Dev nD) (t : Fin cfg0.N) (h0 : ¬t.val % 8 = 0) :
    (outsAt0 m c t.val t.isLt).2.1 = k0_pay4 (iblk m c 0 t) (iblk m c 1 t) (outsAt0 m c (t.val - 1) (Nat.lt_of_le_of_lt (Nat.sub_le _ _) t.isLt)).2.1
    ∧ (outsAt0 m c t.val t.isLt).2.2 = k0_pay5 (iblk m c 0 t) (iblk m c 3 t) (outsAt0 m c (t.val - 1) (Nat.lt_of_le_of_lt (Nat.sub_le _ _) t.isLt)).2.2 := by
  by_cases h1 : t.val % 8 = 7
  · rw [outsAt0_C m c t h0 h1]
    dsimp only
    exact ⟨sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    dsimp only
    exact ⟨sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2⟩

/-- On the last contraction block the output tile combines the two accumulators as this position leaves them. -/
theorem step_last (c : Dev nD) (t : Fin cfg0.N) (h1 : t.val % 8 = 7) :
    (outsAt0 m c t.val t.isLt).1
      = k0_pay6 (iblk m c 4 t) (outsAt0 m c t.val t.isLt).2.2 (outsAt0 m c t.val t.isLt).2.1 (iblk m c 2 t) := by
  have h0 : ¬t.val % 8 = 0 := by omega
  obtain ⟨e1, e2⟩ := step_later m c t h0
  rw [e1, e2, outsAt0_C m c t h0 h1]
  dsimp only
  exact out_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Steps

end
-- ==== Proof.Spec.lean ====
/-
  The low-rank-adapted linear layer as ONE function of its argument arrays, index by index, over the extended reals:

      y(a, s, o) = (∑_d x(a, s, d) · W(o, d) + bias(o)) + (∑_k (∑_d x(a, s, d) · A(k, d)) · B(o, k)) · 2

  and the vocabulary for the order in which a tiled evaluation builds it: the contraction axis of length 4096 is cut into
  eight blocks of 512 columns, a block's partial dot product is added to an accumulator that starts from zero, and the
  rows and output columns are visited in tiles of 1024. Definitions only; the laws about them are in the modules
  that import this one.
-/
import Idealize.ShloMosaic.PureOps.Ideal
import Idealize.ShloMosaic.Lib.ValueIdx

noncomputable section

namespace Cert.LoraSpec

open Idealize.ShloMosaic Idealize.ShloMosaic.ValueIdx

/-- A rows-by-columns array of extended reals. -/
abbrev Mat (a b : ℕ) : Type := (⟨2, ![a, b]⟩ : Shape).Idx → EReal

/-- Column `e` of contraction block `kb`: `kb · 512 + e` (reduced mod 4096, so that it is a column for every `kb`; for
    the eight blocks `kb < 8` the reduction does nothing). -/
def kcol (kb : ℕ) (e : Fin 512) : Fin 4096 := ⟨(kb * 512 + e.val) % 4096, Nat.mod_lt _ (by norm_num)⟩

/-- Row `p` of the row tile visited at grid position `n` (the positions run over 8 row tiles × 4 column tiles × 8
    contraction blocks, the last fastest): row `(n / 32) · 1024 + p` of the 8192 flattened rows. -/
def xrow (n : ℕ) (p : Fin 1024) : Fin 8192 := ⟨((n / 32) * 1024 + p.val) % 8192, Nat.mod_lt _ (by norm_num)⟩

/-- Output column `q` of the column tile visited at grid position `n`: column `((n / 8) % 4) · 1024 + q` of 4096. -/
def wcol (n : ℕ) (q : Fin 1024) : Fin 4096 := ⟨(((n / 8) % 4) * 1024 + q.val) % 4096, Nat.mod_lt _ (by norm_num)⟩

/-- One contraction block's share of the dot product of row `r` of `L` with row `c` of `R`. -/
def blockDot {a b : ℕ} (L : Mat a 4096) (R : Mat b 4096) (r : Fin a) (c : Fin b) (kb : ℕ) : EReal :=
  ∑ e : Fin 512, L (ix2 r (kcol kb e)) * R (ix2 c (kcol kb e))

/-- The accumulator after contraction block `k`: zero plus block 0's share, then each later block's share added. -/
def accDot {a b : ℕ} (L : Mat a 4096) (R : Mat b 4096) (r : Fin a) (c : Fin b) : ℕ → EReal
  | 0 => 0 + blockDot L R r c 0
  | k + 1 => accDot L R r c k + blockDot L R r c (k + 1)

/-- The whole dot product of row `r` of `L` with row `c` of `R`. -/
def fullDot {a b : ℕ} (L : Mat a 4096) (R : Mat b 4096) (r : Fin a) (c : Fin b) : EReal :=
  ∑ d : Fin 4096, L (ix2 r d) * R (ix2 c d)

/-- The scale `alpha / rank = 32 / 16`, as the float literal both programs carry. -/
def two : EReal := Ideal.ofBits .f32 0x40000000#32

/-- The layer at flattened row `r` and output column `o`, with the bias as a one-row array. -/
def linAt (X : Mat 8192 4096) (W : Mat 4096 4096) (b : Mat 1 4096) (A : Mat 16 4096) (B : Mat 4096 16)
    (r : Fin 8192) (o : Fin 4096) : EReal :=
  (fullDot X W r o + b (ix2 (0 : Fin 1) o)) + (∑ k : Fin 16, fullDot X A r k * B (ix2 o k)) * two

/-- The layer on the flattened rows, as an array. -/
def lin (X : Mat 8192 4096) (W : Mat 4096 4096) (b : Mat 1 4096) (A : Mat 16 4096) (B : Mat 4096 16) : Mat 8192 4096 :=
  fun j => linAt X W b A B (j 0) (j 1)

theorem lin_ix2 (X : Mat 8192 4096) (W : Mat 4096 4096) (b : Mat 1 4096) (A : Mat 16 4096) (B : Mat 4096 16)
    (r : Fin 8192) (o : Fin 4096) : lin X W b A B (ix2 r o) = linAt X W b A B r o := rfl

/-- A batch-by-sequence-by-feature array of extended reals. -/
abbrev Arr3 : Type := (⟨3, ![4, 2048, 4096]⟩ : Shape).Idx → EReal

/-- The layer at batch `a`, position `s`, output feature `o`, on the arrays as the caller passes them. -/
def out3At (x : Arr3) (W : Mat 4096 4096) (bias : (⟨1, ![4096]⟩ : Shape).Idx → EReal) (A : Mat 16 4096) (B : Mat 4096 16)
    (a : Fin 4) (s : Fin 2048) (o : Fin 4096) : EReal :=
  ((∑ d : Fin 4096, x (ix3 a s d) * W (ix2 o d)) + bias (ix1 o))
    + (∑ k : Fin 16, (∑ d : Fin 4096, x (ix3 a s d) * A (ix2 k d)) * B (ix2 o k)) * two

/-- The layer's result array. -/
def out3 (x : Arr3) (W : Mat 4096 4096) (bias : (⟨1, ![4096]⟩ : Shape).Idx → EReal) (A : Mat 16 4096) (B : Mat 4096 16) : Arr3 :=
  fun i => out3At x W bias A B (i 0) (i 1) (i 2)

theorem out3_ix3 (x : Arr3) (W : Mat 4096 4096) (bias : (⟨1, ![4096]⟩ : Shape).Idx → EReal) (A : Mat 16 4096) (B : Mat 4096 16)
    (a : Fin 4) (s : Fin 2048) (o : Fin 4096) : out3 x W bias A B (ix3 a s o) = out3At x W bias A B a s o := rfl

end Cert.LoraSpec

end
-- ==== Proof.Blocks.lean ====
/-
  Where each tile the kernel body loads sits in its array.

  The grid has 8 × 4 × 8 = 256 positions: row tile, output-column tile, contraction block, the last fastest. At
  position t the body is given rows (t / 32)·1024 … of x, rows ((t / 8) % 4)·1024 … of the weight and of B (and that
  stretch of the bias row), and columns (t % 8)·512 … of x, the weight and A. The facts about the printed index maps are
  decided once over the 256 positions; each block read at an index is then the array read at the tile's offset plus the
  index. Also: the two arrays the region finds already reshaped — x flattened to [8192, 4096] and the bias as one row.
  All statements hold at every float instance.
-/
import proofs.«173166_j17635135717659_1_alg».proof.Proof.Gen.KernelIdeal.Frame
import proofs.«173166_j17635135717659_1_alg».proof.Proof.Spec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Blocks

open Cert.KernelIdeal Cert.KernelIdeal.Gen

open Cert.LoraSpec Idealize.ShloMosaic.ValueIdx

variable {F : FTy → Type} [FloatOps F]
variable (m : (ℓ : Loc nD τ sig) → Buf (Elt F) ℓ)

/-- The block index of every window at every grid position, from the position's three coordinates. -/
theorem idx_facts : ∀ t : Fin cfg0.N,
    win0_0.index t (0 : Fin 2) = t.val / 32 ∧ win0_0.index t (1 : Fin 2) = t.val % 8
    ∧ win0_1.index t (0 : Fin 2) = (t.val / 8) % 4 ∧ win0_1.index t (1 : Fin 2) = t.val % 8
    ∧ win0_2.index t (0 : Fin 2) = 0 ∧ win0_2.index t (1 : Fin 2) = (t.val / 8) % 4
    ∧ win0_3.index t (0 : Fin 2) = 0 ∧ win0_3.index t (1 : Fin 2) = t.val % 8
    ∧ win0_4.index t (0 : Fin 2) = (t.val / 8) % 4 ∧ win0_4.index t (1 : Fin 2) = 0
    ∧ win0_5.index t (0 : Fin 2) = t.val / 32 ∧ win0_5.index t (1 : Fin 2) = (t.val / 8) % 4 :=
  (by decide +kernel : ∀ t : Fin grid0.N, _)

/-- The x tile: row p, column e of it is row (t / 32)·1024 + p, column (t % 8)·512 + e of the flattened x. -/
theorem iblk0_apply (c : Dev nD) (t : Fin cfg0.N) (p : Fin 1024) (e : Fin 512) :
    (iblk m c 0 t : Vec F S1024x512 .f32) (ix2 p e) = V m c main_v0 (ix2 (xrow t.val p) (kcol (t.val % 8) e)) := by
  obtain ⟨e00, e01, e10, e11, e20, e21, e30, e31, e40, e41, e50, e51⟩ := idx_facts t
  have hN : t.val < 256 := lt_of_lt_of_eq t.isLt N_0
  unfold iblk
  rw [View.read_apply]
  show V m c main_v0 _ = V m c main_v0 _
  congr 1
  funext a; apply Fin.ext
  match a with
  | ⟨0, _⟩ => show win0_0.index t (0 : Fin 2) * 1024 + 1 * p.val = ((t.val / 32) * 1024 + p.val) % 8192; rw [e00]; omega
  | ⟨1, _⟩ => show win0_0.index t (1 : Fin 2) * 512 + 1 * e.val = ((t.val % 8) * 512 + e.val) % 4096; rw [e01]; omega

/-- The weight tile: row q, column e of it is row ((t / 8) % 4)·1024 + q, column (t % 8)·512 + e of the weight. -/
theorem iblk1_apply (c : Dev nD) (t : Fin cfg0.N) (q : Fin 1024) (e : Fin 512) :
    (iblk m c 1 t : Vec F S1024x512 .f32) (ix2 q e) = V m c main_arg1 (ix2 (wcol t.val q) (kcol (t.val % 8) e)) := by
  obtain ⟨e00, e01, e10, e11, e20, e21, e30, e31, e40, e41, e50, e51⟩ := idx_facts t
  have hN : t.val < 256 := lt_of_lt_of_eq t.isLt N_0
  unfold iblk
  rw [View.read_apply]
  show V m c main_arg1 _ = V m c main_arg1 _
  congr 1
  funext a; apply Fin.ext
  match a with
  | ⟨0, _⟩ => show win0_1.index t (0 : Fin 2) * 1024 + 1 * q.val = (((t.val / 8) % 4) * 1024 + q.val) % 4096; rw [e10]; omega
  | ⟨1, _⟩ => show win0_1.index t (1 : Fin 2) * 512 + 1 * e.val = ((t.val % 8) * 512 + e.val) % 4096; rw [e11]; omega

/-- The bias stretch: entry q of it is entry ((t / 8) % 4)·1024 + q of the bias row. -/
theorem iblk2_apply (c : Dev nD) (t : Fin cfg0.N) (u : Fin 1) (q : Fin 1024) :
    (iblk m c 2 t : Vec F S1x1024 .f32) (ix2 u q) = V m c main_v1 (ix2 u (wcol t.val q)) := by
  obtain ⟨e00, e01, e10, e11, e20, e21, e30, e31, e40, e41, e50, e51⟩ := idx_facts t
  have hN : t.val < 256 := lt_of_lt_of_eq t.isLt N_0
  unfold iblk
  rw [View.read_apply]
  show V m c main_v1 _ = V m c main_v1 _
  congr 1
  funext a; apply Fin.ext
  match a with
  | ⟨0, _⟩ => show win0_2.index t (0 : Fin 2) * 1 + 1 * u.val = u.val; rw [e20]; omega
  | ⟨1, _⟩ => show win0_2.index t (1 : Fin 2) * 1024 + 1 * q.val = (((t.val / 8) % 4) * 1024 + q.val) % 4096; rw [e21]; omega

/-- The A tile: row r, column e of it is row r, column (t % 8)·512 + e of A. -/
theorem iblk3_apply (c : Dev nD) (t : Fin cfg0.N) (r : Fin 16) (e : Fin 512) :
    (iblk m c 3 t : Vec F S16x512 .f32) (ix2 r e) = V m c main_arg3 (ix2 r (kcol (t.val % 8) e)) := by
  obtain ⟨e00, e01, e10, e11, e20, e21, e30, e31, e40, e41, e50, e51⟩ := idx_facts t
  have hN : t.val < 256 := lt_of_lt_of_eq t.isLt N_0
  unfold iblk
  rw [View.read_apply]
  show V m c main_arg3 _ = V m c main_arg3 _
  congr 1
  funext a; apply Fin.ext
  match a with
  | ⟨0, _⟩ => show win0_3.index t (0 : Fin 2) * 16 + 1 * r.val = r.val; rw [e30]; omega
  | ⟨1, _⟩ => show win0_3.index t (1 : Fin 2) * 512 + 1 * e.val = ((t.val % 8) * 512 + e.val) % 4096; rw [e31]; omega

/-- The B tile: row q, column r of it is row ((t / 8) % 4)·1024 + q, column r of B. -/
theorem iblk4_apply (c : Dev nD) (t : Fin cfg0.N) (q : Fin 1024) (r : Fin 16) :
    (iblk m c 4 t : Vec F S1024x16 .f32) (ix2 q r) = V m c main_arg4 (ix2 (wcol t.val q) r) := by
  obtain ⟨e00, e01, e10, e11, e20, e21, e30, e31, e40, e41, e50, e51⟩ := idx_facts t
  have hN : t.val < 256 := lt_of_lt_of_eq t.isLt N_0
  unfold iblk
  rw [View.read_apply]
  show V m c main_arg4 _ = V m c main_arg4 _
  congr 1
  funext a; apply Fin.ext
  match a with
  | ⟨0, _⟩ => show win0_4.index t (0 : Fin 2) * 1024 + 1 * q.val = (((t.val / 8) % 4) * 1024 + q.val) % 4096; rw [e40]; omega
  | ⟨1, _⟩ => show win0_4.index t (1 : Fin 2) * 16 + 1 * r.val = r.val; rw [e41]; omega

/-- The region finds x flattened: the host reshaped [4, 2048, 4096] to [8192, 4096] before it. -/
theorem V_main_v0 (c : Dev nD) :
    (V m c main_v0 : S8192x4096.Idx → Elt F .f32)
      = shapeCast S8192x4096 (m ((c : Thread nD τ).loc main_arg0)) shapeCasts_S4x2048x4096_S8192x4096 := by
  show StableHlo.after hostOps0 (fun b => m (c, b)) (Proc.devRef .tc main_v0) = _
  after_results
  rfl

/-- The region finds the bias as one row: the host reshaped [4096] to [1, 4096] before it. -/
theorem V_main_v1 (c : Dev nD) :
    (V m c main_v1 : S1x4096.Idx → Elt F .f32)
      = shapeCast S1x4096 (m ((c : Thread nD τ).loc main_arg2)) shapeCasts_S4096_S1x4096 := by
  show StableHlo.after hostOps0 (fun b => m (c, b)) (Proc.devRef .tc main_v1) = _
  after_results
  rfl

end Cert.KernelIdeal.Blocks

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.Payload.lean ====
/-
  The values the kernel body stores, read at an index.

  Each stored value is a pure term over the tiles loaded before it: a same-shape cast (the identity), a narrowing to
  bf16 (the identity at the ideal values), a matrix product of two tiles contracting the second axis of both into the
  zero splat (the sum over that axis of the products), an elementwise sum, the one-row bias repeated down the rows, and
  a product by the splat of the scale literal. Read at row `p`, column `q`:

    * the two initial values are `0`;
    * the accumulator update is the old accumulator plus `∑ e, x(p, e) · w(q, e)` over the 512 columns of a block;
    * the final value is `(acc(p, q) + bias(0, q)) + (∑ r, t(p, r) · b(q, r)) · 2` over the 16 adapter columns.
-/
import proofs.«173166_j17635135717659_1_alg».proof.Proof.Spec
import proofs.«173166_j17635135717659_1_alg».proof.Proof.LibContract
import proofs.«173166_j17635135717659_1_alg».proof.Proof.Gen.KernelIdeal.Skeleton
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx

/-- The zero splat read at an index. -/
theorem pay1_apply (p q : Fin 1024) : k0_pay1 (F := Ideal) (ix2 p q) = 0 := by
  unfold k0_pay1
  rw [shapeCast_self]
  exact Ideal.ofBits_zero_f32

theorem pay2_apply (p : Fin 1024) (r : Fin 16) : k0_pay2 (F := Ideal) (ix2 p r) = 0 := by
  unfold k0_pay2
  rw [shapeCast_self]
  exact Ideal.ofBits_zero_f32

/-- The narrowed left operand is, at the ideal values, the loaded tile itself. -/
theorem pay3_apply (v3 : Vec Ideal S1024x512 .f32) (i : S1024x512.Idx) : k0_pay3 v3 i = v3 i := by
  unfold k0_pay3
  rw [shapeCast_self]
  rfl

/-! ## The operand indices of the three products, coordinate by coordinate

For each product the left operand is read at (row of the output index, contraction coordinate) and the right operand at
(column of the output index, contraction coordinate). -/

theorem d4_lhs0 (j : S1024x1024.Idx) (k : dot_S1024x512_S1024x512_S1024x1024_1_1_0_0_n_n.contr.Idx) : (dot_S1024x512_S1024x512_S1024x1024_1_1_0_0_n_n.lhsIdx j k 0).val = (j 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem d4_lhs1 (j : S1024x1024.Idx) (k : dot_S1024x512_S1024x512_S1024x1024_1_1_0_0_n_n.contr.Idx) : (dot_S1024x512_S1024x512_S1024x1024_1_1_0_0_n_n.lhsIdx j k 1).val = (k ⟨0, by decide⟩).val :=
  dot_S1024x512_S1024x512_S1024x1024_1_1_0_0_n_n.lhsIdx_val_of_single rfl j k
theorem d4_rhs0 (j : S1024x1024.Idx) (k : dot_S1024x512_S1024x512_S1024x1024_1_1_0_0_n_n.contr.Idx) : (dot_S1024x512_S1024x512_S1024x1024_1_1_0_0_n_n.rhsIdx j k 0).val = (j 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem d4_rhs1 (j : S1024x1024.Idx) (k : dot_S1024x512_S1024x512_S1024x1024_1_1_0_0_n_n.contr.Idx) : (dot_S1024x512_S1024x512_S1024x1024_1_1_0_0_n_n.rhsIdx j k 1).val = (k ⟨0, by decide⟩).val :=
  dot_S1024x512_S1024x512_S1024x1024_1_1_0_0_n_n.rhsIdx_val_of_single rfl j k

theorem pay4_apply (v3 v6 : Vec Ideal S1024x512 .f32) (v10 : Vec Ideal S1024x1024 .f32) (p q : Fin 1024) :
    k0_pay4 v3 v6 v10 (ix2 p q) = v10 (ix2 p q) + ∑ e : Fin 512, v3 (ix2 p e) * v6 (ix2 q e) := by
  unfold k0_pay4
  rw [shapeCast_self]
  refine congrArg (fun t => v10 (ix2 p q) + t) ?_
  refine ContractSingle.matmul_zero_single dot_S1024x512_S1024x512_S1024x1024_1_1_0_0_n_n none 512 rfl rfl (k0_pay3 v3) _ (ix2 p q)
    (fun e => v3 (ix2 p e)) (fun e => v6 (ix2 q e)) (fun e => ?_) (fun e => ?_)
  · refine (pay3_apply v3 _).trans (congrArg v3 (funext fun a => Fin.ext ?_))
    match a with
    | ⟨0, _⟩ => exact d4_lhs0 _ _
    | ⟨1, _⟩ => exact (d4_lhs1 _ _).trans (contrEquiv1_symm_val dot_S1024x512_S1024x512_S1024x1024_1_1_0_0_n_n 512 rfl rfl e)
  · refine congrArg v6 (funext fun a => Fin.ext ?_)
    match a with
    | ⟨0, _⟩ => exact d4_rhs0 _ _
    | ⟨1, _⟩ => exact (d4_rhs1 _ _).trans (contrEquiv1_symm_val dot_S1024x512_S1024x512_S1024x1024_1_1_0_0_n_n 512 rfl rfl e)

theorem d5_lhs0 (j : S1024x16.Idx) (k : dot_S1024x512_S16x512_S1024x16_1_1_0_0_n_n.contr.Idx) : (dot_S1024x512_S16x512_S1024x16_1_1_0_0_n_n.lhsIdx j k 0).val = (j 0).val := by
  unfold DotDims.lhsIdx
  rw [dif_neg (show ¬(0 : Fin S1024x512.rank) ∈ dot_S1024x512_S16x512_S1024x16_1_1_0_0_n_n.lhsBatch by decide), dif_pos (show (0 : Fin S1024x512.rank) ∈ dot_S1024x512_S16x512_S1024x16_1_1_0_0_n_n.lhsNonContracting by decide)]
  rfl
theorem d5_lhs1 (j : S1024x16.Idx) (k : dot_S1024x512_S16x512_S1024x16_1_1_0_0_n_n.contr.Idx) : (dot_S1024x512_S16x512_S1024x16_1_1_0_0_n_n.lhsIdx j k 1).val = (k ⟨0, by decide⟩).val :=
  dot_S1024x512_S16x512_S1024x16_1_1_0_0_n_n.lhsIdx_val_of_single rfl j k
theorem d5_rhs0 (j : S1024x16.Idx) (k : dot_S1024x512_S16x512_S1024x16_1_1_0_0_n_n.contr.Idx) : (dot_S1024x512_S16x512_S1024x16_1_1_0_0_n_n.rhsIdx j k 0).val = (j 1).val := by
  unfold DotDims.rhsIdx
  rw [dif_neg (show ¬(0 : Fin S16x512.rank) ∈ dot_S1024x512_S16x512_S1024x16_1_1_0_0_n_n.rhsBatch by decide), dif_pos (show (0 : Fin S16x512.rank) ∈ dot_S1024x512_S16x512_S1024x16_1_1_0_0_n_n.rhsNonContracting by decide)]
  rfl
theorem d5_rhs1 (j : S1024x16.Idx) (k : dot_S1024x512_S16x512_S1024x16_1_1_0_0_n_n.contr.Idx) : (dot_S1024x512_S16x512_S1024x16_1_1_0_0_n_n.rhsIdx j k 1).val = (k ⟨0, by decide⟩).val :=
  dot_S1024x512_S16x512_S1024x16_1_1_0_0_n_n.rhsIdx_val_of_single rfl j k

theorem pay5_apply (v3 : Vec Ideal S1024x512 .f32) (v8 : Vec Ideal S16x512 .f32) (v16 : Vec Ideal S1024x16 .f32) (p : Fin 1024) (r : Fin 16) :
    k0_pay5 v3 v8 v16 (ix2 p r) = v16 (ix2 p r) + ∑ e : Fin 512, v3 (ix2 p e) * v8 (ix2 r e) := by
  unfold k0_pay5
  rw [shapeCast_self]
  refine congrArg (fun t => v16 (ix2 p r) + t) ?_
  refine ContractSingle.matmul_zero_single dot_S1024x512_S16x512_S1024x16_1_1_0_0_n_n none 512 rfl rfl (k0_pay3 v3) _ (ix2 p r)
    (fun e => v3 (ix2 p e)) (fun e => v8 (ix2 r e)) (fun e => ?_) (fun e => ?_)
  · refine (pay3_apply v3 _).trans (congrArg v3 (funext fun a => Fin.ext ?_))
    match a with
    | ⟨0, _⟩ => exact d5_lhs0 _ _
    | ⟨1, _⟩ => exact (d5_lhs1 _ _).trans (contrEquiv1_symm_val dot_S1024x512_S16x512_S1024x16_1_1_0_0_n_n 512 rfl rfl e)
  · refine congrArg v8 (funext fun a => Fin.ext ?_)
    match a with
    | ⟨0, _⟩ => exact d5_rhs0 _ _
    | ⟨1, _⟩ => exact (d5_rhs1 _ _).trans (contrEquiv1_symm_val dot_S1024x512_S16x512_S1024x16_1_1_0_0_n_n 512 rfl rfl e)

theorem d6_lhs0 (j : S1024x1024.Idx) (k : dot_S1024x16_S1024x16_S1024x1024_1_1_0_0_n_n.contr.Idx) : (dot_S1024x16_S1024x16_S1024x1024_1_1_0_0_n_n.lhsIdx j k 0).val = (j 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
theorem d6_lhs1 (j : S1024x1024.Idx) (k : dot_S1024x16_S1024x16_S1024x1024_1_1_0_0_n_n.contr.Idx) : (dot_S1024x16_S1024x16_S1024x1024_1_1_0_0_n_n.lhsIdx j k 1).val = (k ⟨0, by decide⟩).val :=
  dot_S1024x16_S1024x16_S1024x1024_1_1_0_0_n_n.lhsIdx_val_of_single rfl j k
theorem d6_rhs0 (j : S1024x1024.Idx) (k : dot_S1024x16_S1024x16_S1024x1024_1_1_0_0_n_n.contr.Idx) : (dot_S1024x16_S1024x16_S1024x1024_1_1_0_0_n_n.rhsIdx j k 0).val = (j 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
theorem d6_rhs1 (j : S1024x1024.Idx) (k : dot_S1024x16_S1024x16_S1024x1024_1_1_0_0_n_n.contr.Idx) : (dot_S1024x16_S1024x16_S1024x1024_1_1_0_0_n_n.rhsIdx j k 1).val = (k ⟨0, by decide⟩).val :=
  dot_S1024x16_S1024x16_S1024x1024_1_1_0_0_n_n.rhsIdx_val_of_single rfl j k

/-- The bias row, repeated down the 1024 rows of the tile, read at an index. -/
theorem bias_apply (v31 : Vec Ideal S1x1024 .f32) (p q : Fin 1024) :
    broadcastTo S1024x1024 v31 broadcasts_S1x1024_S1024x1024 (ix2 p q) = v31 (ix2 (0 : Fin 1) q) :=
  broadcastTo_apply v31 broadcasts_S1x1024_S1024x1024 (ix2 p q) (ix2 (0 : Fin 1) q) (fun a => by
    match a with
    | ⟨0, _⟩ => show 0 = if (1 : Nat) = 1 then 0 else p.val; rw [if_pos rfl]
    | ⟨1, _⟩ => show q.val = if (1024 : Nat) = 1 then 0 else q.val; rw [if_neg (by decide)])

theorem pay6_apply (v25 v27 : Vec Ideal S1024x16 .f32) (v30 : Vec Ideal S1024x1024 .f32) (v31 : Vec Ideal S1x1024 .f32) (p q : Fin 1024) :
    k0_pay6 v25 v27 v30 v31 (ix2 p q)
      = (v30 (ix2 p q) + v31 (ix2 (0 : Fin 1) q)) + (∑ r : Fin 16, v27 (ix2 p r) * v25 (ix2 q r)) * Cert.LoraSpec.two := by
  unfold k0_pay6 Cert.LoraSpec.two
  rw [shapeCast_self]
  refine congrArg₂ (fun s t => (v30 (ix2 p q) + s) + t * Ideal.ofBits .f32 0x40000000#32) (bias_apply v31 p q) ?_
  refine ContractSingle.matmul_zero_single dot_S1024x16_S1024x16_S1024x1024_1_1_0_0_n_n none 16 rfl rfl _ _ (ix2 p q)
    (fun r => v27 (ix2 p r)) (fun r => v25 (ix2 q r)) (fun r => ?_) (fun r => ?_)
  · refine congrArg v27 (funext fun a => Fin.ext ?_)
    match a with
    | ⟨0, _⟩ => exact d6_lhs0 _ _
    | ⟨1, _⟩ => exact (d6_lhs1 _ _).trans (contrEquiv1_symm_val dot_S1024x16_S1024x16_S1024x1024_1_1_0_0_n_n 16 rfl rfl r)
  · refine congrArg v25 (funext fun a => Fin.ext ?_)
    match a with
    | ⟨0, _⟩ => exact d6_rhs0 _ _
    | ⟨1, _⟩ => exact (d6_rhs1 _ _).trans (contrEquiv1_symm_val dot_S1024x16_S1024x16_S1024x1024_1_1_0_0_n_n 16 rfl rfl r)

end Cert.KernelIdeal.PayValue

end
-- ==== Proof.SumBlocks.lean ====
/-
  The accumulator after the eighth contraction block is the whole dot product: a sum over the 4096 = 8 · 512 columns is
  the sum, over the eight blocks, of each block's 512 terms. Addition of extended reals is a commutative monoid, so the
  regrouping needs no finiteness.
-/
import proofs.«173166_j17635135717659_1_alg».proof.Proof.Spec
import Mathlib.Algebra.BigOperators.Fin
import Mathlib.Logic.Equiv.Fin.Basic

noncomputable section

namespace Cert.LoraSpec

open Idealize.ShloMosaic Idealize.ShloMosaic.ValueIdx

/-- A sum over the 4096 columns, regrouped as eight consecutive blocks of 512: column `e` of block `i` is
    `i · 512 + e`, the position the pair `(i, e)` has in the lexicographic order of `Fin 8 × Fin 512`. -/
theorem sum_blocks (f : Fin 4096 → EReal) :
    ∑ d : Fin 4096, f d = ∑ i : Fin 8, ∑ e : Fin 512, f (kcol i.val e) := by
  have h : ∑ p : Fin 8 × Fin 512, f (kcol p.1.val p.2) = ∑ d : Fin 4096, f d := by
    refine Fintype.sum_equiv (finProdFinEquiv (m := 8) (n := 512)) _ _ ?_
    rintro ⟨i, e⟩
    congr 1
    apply Fin.ext
    have hi := i.isLt
    have he := e.isLt
    show (i.val * 512 + e.val) % 4096 = e.val + 512 * i.val
    rw [Nat.mod_eq_of_lt (by omega)]
    omega
  rw [← h, Fintype.sum_prod_type]

/-- The accumulator after block `n` is the sum of the shares of blocks `0, …, n`. -/
theorem accDot_eq_sum {a b : ℕ} (L : Mat a 4096) (R : Mat b 4096) (r : Fin a) (c : Fin b) (n : ℕ) :
    accDot L R r c n = ∑ i ∈ Finset.range (n + 1), blockDot L R r c i := by
  induction n with
  | zero => simp [accDot]
  | succ k ih => rw [accDot, ih, Finset.sum_range_succ _ (k + 1)]

theorem accDot_seven {a b : ℕ} (L : Mat a 4096) (R : Mat b 4096) (r : Fin a) (c : Fin b) :
    accDot L R r c 7 = fullDot L R r c := by
  rw [accDot_eq_sum, ← Fin.sum_univ_eq_sum_range (fun i => blockDot L R r c i) (7 + 1)]
  unfold fullDot
  rw [sum_blocks (fun d => L (ix2 r d) * R (ix2 c d))]
  rfl

end Cert.LoraSpec

end
-- ==== Proof.Invariant.lean ====
/-
  What the kernel's accumulators and output tile hold, position by position, at the extended reals.

  A sweep over the eight contraction blocks for one row tile and one column tile builds, entry by entry, the dot product
  of a row of x with a row of the weight (and with a row of A) as zero plus the eight blocks' shares in order; on the
  last block the tile written out is the whole layer at that entry: the finished base product plus the bias, plus twice
  the product of the finished low-rank projection with B. The eight ordered shares are the whole sum because addition
  of extended reals is associative and commutative; nothing here needs the inputs to be finite.
-/
import proofs.«173166_j17635135717659_1_alg».proof.Proof.Steps
import proofs.«173166_j17635135717659_1_alg».proof.Proof.Blocks
import proofs.«173166_j17635135717659_1_alg».proof.Proof.Payload
import proofs.«173166_j17635135717659_1_alg».proof.Proof.SumBlocks
import proofs.«173166_j17635135717659_1_alg».proof.Proof.Spec

noncomputable section

open Idealize.ShloMosaic Idealize.ShloMosaic.TcCoe Idealize.SL.Sem Idealize.ShloMosaic.Tactic
open Idealize.ShloMosaic.Pipeline (Dat)

namespace Cert.KernelIdeal.Acc

open Cert.KernelIdeal Cert.KernelIdeal.Gen

open Cert.LoraSpec Idealize.ShloMosaic.ValueIdx Cert.KernelIdeal.PayValue Cert.KernelIdeal.Blocks Cert.KernelIdeal.Steps

variable (m : (ℓ : Loc nD τ sig) → Buf (Elt Ideal) ℓ)

/-- The arrays as the region finds them: the flattened x, the weight, the one-row bias, A and B. -/
abbrev X (c : Dev nD) : Mat 8192 4096 := V m c main_v0
abbrev Wt (c : Dev nD) : Mat 4096 4096 := V m c main_arg1
abbrev Bi (c : Dev nD) : Mat 1 4096 := V m c main_v1
abbrev La (c : Dev nD) : Mat 16 4096 := V m c main_arg3
abbrev Lb (c : Dev nD) : Mat 4096 16 := V m c main_arg4

/-- One visit's update of the base accumulator at an entry: when the loaded tiles are the arrays' tiles of contraction
    block `kb` and the accumulator held `acc`, it ends at `acc` plus that block's share of the dot product. -/
theorem pay4_block {a b : ℕ} (v3 v6 : Vec Ideal S1024x512 .f32) (v10 : Vec Ideal S1024x1024 .f32) (L : Mat a 4096) (R : Mat b 4096)
    (r : Fin a) (cc : Fin b) (kb : ℕ) (acc : EReal) (p q : Fin 1024)
    (h3 : ∀ e : Fin 512, v3 (ix2 p e) = L (ix2 r (kcol kb e))) (h6 : ∀ e : Fin 512, v6 (ix2 q e) = R (ix2 cc (kcol kb e)))
    (h10 : v10 (ix2 p q) = acc) :
    k0_pay4 v3 v6 v10 (ix2 p q) = acc + blockDot L R r cc kb := by
  rw [pay4_apply, h10]
  unfold blockDot
  exact congrArg (acc + ·) (Finset.sum_congr rfl fun e _ => by rw [h3 e, h6 e])

/-- The same for the low-rank accumulator. -/
theorem pay5_block {a b : ℕ} (v3 : Vec Ideal S1024x512 .f32) (v8 : Vec Ideal S16x512 .f32) (v16 : Vec Ideal S1024x16 .f32) (L : Mat a 4096) (R : Mat b 4096)
    (r : Fin a) (cc : Fin b) (kb : ℕ) (acc : EReal) (p : Fin 1024) (k : Fin 16)
    (h3 : ∀ e : Fin 512, v3 (ix2 p e) = L (ix2 r (kcol kb e))) (h8 : ∀ e : Fin 512, v8 (ix2 k e) = R (ix2 cc (kcol kb e)))
    (h16 : v16 (ix2 p k) = acc) :
    k0_pay5 v3 v8 v16 (ix2 p k) = acc + blockDot L R r cc kb := by
  rw [pay5_apply, h16]
  unfold blockDot
  exact congrArg (acc + ·) (Finset.sum_congr rfl fun e _ => by rw [h3 e, h8 e])

/-- Within one sweep of the contraction blocks the row tile and the column tile do not move. -/
theorem xrow_succ {n : ℕ} (h : ¬(n + 1) % 8 = 0) (p : Fin 1024) : xrow (n + 1) p = xrow n p :=
  Fin.ext (by show ((n + 1) / 32 * 1024 + p.val) % 8192 = (n / 32 * 1024 + p.val) % 8192; omega)
theorem wcol_succ {n : ℕ} (h : ¬(n + 1) % 8 = 0) (q : Fin 1024) : wcol (n + 1) q = wcol n q :=
  Fin.ext (by show ((n + 1) / 8 % 4 * 1024 + q.val) % 4096 = (n / 8 % 4 * 1024 + q.val) % 4096; omega)

/-- THE ACCUMULATORS. After the visit at grid position `n` — contraction block `n % 8` of the sweep for the position's row
    tile and column tile — the base accumulator holds, at (p, q), zero plus the shares of blocks 0 … n % 8 of the dot
    product of x's row with the weight's row, and the low-rank accumulator the same for x's row with A's row k. By
    induction on the position: a first block starts from zero, a later one adds to what the position before left. -/
theorem acc_inv (c : Dev nD) : ∀ (n : ℕ) (h : n < cfg0.N),
    (∀ p q : Fin 1024, (outsAt0 m c n h).2.1 (ix2 p q) = accDot (X m c) (Wt m c) (xrow n p) (wcol n q) (n % 8))
    ∧ (∀ (p : Fin 1024) (k : Fin 16), (outsAt0 m c n h).2.2 (ix2 p k) = accDot (X m c) (La m c) (xrow n p) k (n % 8))
  | 0, h => by
    obtain ⟨s1, s2⟩ := step_first m c ⟨0, h⟩ rfl
    refine ⟨fun p q => (congrFun s1 (ix2 p q)).trans ?_, fun p k => (congrFun s2 (ix2 p k)).trans ?_⟩
    · exact pay4_block _ _ _ (X m c) (Wt m c) (xrow 0 p) (wcol 0 q) 0 0 p q
        (fun e => iblk0_apply m c ⟨0, h⟩ p e) (fun e => iblk1_apply m c ⟨0, h⟩ q e) (pay1_apply p q)
    · exact pay5_block _ _ _ (X m c) (La m c) (xrow 0 p) k 0 0 p k
        (fun e => iblk0_apply m c ⟨0, h⟩ p e) (fun e => iblk3_apply m c ⟨0, h⟩ k e) (pay2_apply p k)
  | n + 1, h => by
    obtain ⟨ih1, ih2⟩ := acc_inv c n (Nat.lt_of_succ_lt h)
    by_cases h0 : (n + 1) % 8 = 0
    · obtain ⟨s1, s2⟩ := step_first m c ⟨n + 1, h⟩ h0
      refine ⟨fun p q => (congrFun s1 (ix2 p q)).trans ?_, fun p k => (congrFun s2 (ix2 p k)).trans ?_⟩
      · refine (pay4_block _ _ _ (X m c) (Wt m c) (xrow (n + 1) p) (wcol (n + 1) q) ((n + 1) % 8) 0 p q
          (fun e => iblk0_apply m c ⟨n + 1, h⟩ p e) (fun e => iblk1_apply m c ⟨n + 1, h⟩ q e) (pay1_apply p q)).trans ?_
        rw [h0]; rfl
      · refine (pay5_block _ _ _ (X m c) (La m c) (xrow (n + 1) p) k ((n + 1) % 8) 0 p k
          (fun e => iblk0_apply m c ⟨n + 1, h⟩ p e) (fun e => iblk3_apply m c ⟨n + 1, h⟩ k e) (pay2_apply p k)).trans ?_
        rw [h0]; rfl
    · obtain ⟨s1, s2⟩ := step_later m c ⟨n + 1, h⟩ h0
      have hk : (n + 1) % 8 = n % 8 + 1 := by omega
      refine ⟨fun p q => (congrFun s1 (ix2 p q)).trans ?_, fun p k => (congrFun s2 (ix2 p k)).trans ?_⟩
      · refine (pay4_block _ _ _ (X m c) (Wt m c) (xrow (n + 1) p) (wcol (n + 1) q) ((n + 1) % 8) _ p q
          (fun e => iblk0_apply m c ⟨n + 1, h⟩ p e) (fun e => iblk1_apply m c ⟨n + 1, h⟩ q e) (ih1 p q)).trans ?_
        rw [hk, xrow_succ h0, wcol_succ h0]; rfl
      · refine (pay5_block _ _ _ (X m c) (La m c) (xrow (n + 1) p) k ((n + 1) % 8) _ p k
          (fun e => iblk0_apply m c ⟨n + 1, h⟩ p e) (fun e => iblk3_apply m c ⟨n + 1, h⟩ k e) (ih2 p k)).trans ?_
        rw [hk, xrow_succ h0]; rfl

/-- THE OUTPUT TILE. At a position on the last contraction block both accumulators are whole dot products, and the tile
    the body writes is the layer at the tile's rows and columns. -/
theorem out_last (c : Dev nD) (t : Fin cfg0.N) (h1 : t.val % 8 = 7) (p q : Fin 1024) :
    (outsAt0 m c t.val t.isLt).1 (ix2 p q)
      = linAt (X m c) (Wt m c) (Bi m c) (La m c) (Lb m c) (xrow t.val p) (wcol t.val q) := by
  obtain ⟨i1, i2⟩ := acc_inv m c t.val t.isLt
  refine (congrFun (step_last m c t h1) (ix2 p q)).trans ((pay6_apply _ _ _ _ p q).trans ?_)
  have e1 : (outsAt0 m c t.val t.isLt).2.1 (ix2 p q) = fullDot (X m c) (Wt m c) (xrow t.val p) (wcol t.val q) :=
    (i1 p q).trans (by rw [h1]; exact accDot_seven _ _ _ _)
  have e2 : (iblk m c 2 t : Vec Ideal S1x1024 .f32) (ix2 (0 : Fin 1) q) = Bi m c (ix2 (0 : Fin 1) (wcol t.val q)) :=
    iblk2_apply m c t 0 q
  have e3 : ∀ k : Fin 16, (outsAt0 m c t.val t.isLt).2.2 (ix2 p k) * (iblk m c 4 t : Vec Ideal S1024x16 .f32) (ix2 q k)
      = fullDot (X m c) (La m c) (xrow t.val p) k * Lb m c (ix2 (wcol t.val q) k) := fun k => by
    rw [i2 p k, h1, accDot_seven, iblk4_apply]
  rw [e1, e2, Finset.sum_congr rfl fun k _ => e3 k]
  rfl

end Cert.KernelIdeal.Acc

end
-- ==== Proof.Flatten.lean ====
/-
  The layer on the flattened rows, read back as a batch-by-sequence-by-feature array, is the layer on the arrays as the
  caller passes them: row `a · 2048 + s` of the 8192 flattened rows is position `(a, s)` of the `[4, 2048, 4096]` array
  (the two have the same row-major position), and the one-row bias at `(0, o)` is the bias vector at `o`.
-/
import proofs.«173166_j17635135717659_1_alg».proof.Proof.Spec
import Idealize.ShloMosaic.Lib.Pipeline.Value
import Idealize.ShloMosaic.Lib.ValueLayout

noncomputable section

namespace Cert.LoraSpec

open Idealize.ShloMosaic Idealize.ShloMosaic.ValueIdx

/-- The flattened row of batch `a`, position `s`: `a · 2048 + s`. -/
def frow (a : Fin 4) (s : Fin 2048) : Fin 8192 := ⟨a.val * 2048 + s.val, by omega⟩

/-- The `[4, 2048, 4096]` array viewed as `[8192, 4096]` reads, at `(a · 2048 + s, d)`, the array at `(a, s, d)`. -/
theorem flat_x_apply (x : Arr3) (h1 : (⟨3, ![4, 2048, 4096]⟩ : Shape).ShapeCasts ⟨2, ![8192, 4096]⟩)
    (a : Fin 4) (s : Fin 2048) (d : Fin 4096) :
    shapeCast ⟨2, ![8192, 4096]⟩ x h1 (ix2 (frow a s) d) = x (ix3 a s d) :=
  shapeCast_apply x h1 _ _ (by
    rw [Shape.rowMajor_val_three, Shape.rowMajor_val_two]
    show (a.val * 2048 + s.val) * 4096 + d.val = (a.val * 2048 + s.val) * 4096 + d.val
    rfl)

/-- An `[8192, 4096]` array viewed as `[4, 2048, 4096]` reads, at `(a, s, o)`, the array at `(a · 2048 + s, o)`. -/
theorem unflat_apply (y : Mat 8192 4096) (h3 : (⟨2, ![8192, 4096]⟩ : Shape).ShapeCasts ⟨3, ![4, 2048, 4096]⟩)
    (a : Fin 4) (s : Fin 2048) (o : Fin 4096) :
    shapeCast ⟨3, ![4, 2048, 4096]⟩ y h3 (ix3 a s o) = y (ix2 (frow a s) o) :=
  shapeCast_apply y h3 _ _ (by
    rw [Shape.rowMajor_val_three, Shape.rowMajor_val_two]
    show (a.val * 2048 + s.val) * 4096 + o.val = (a.val * 2048 + s.val) * 4096 + o.val
    rfl)

theorem flat_eq (x : Arr3) (W : Mat 4096 4096) (bias : (⟨1, ![4096]⟩ : Shape).Idx → EReal) (A : Mat 16 4096) (B : Mat 4096 16)
    (h1 : (⟨3, ![4, 2048, 4096]⟩ : Shape).ShapeCasts ⟨2, ![8192, 4096]⟩)
    (h2 : (⟨1, ![4096]⟩ : Shape).ShapeCasts ⟨2, ![1, 4096]⟩)
    (h3 : (⟨2, ![8192, 4096]⟩ : Shape).ShapeCasts ⟨3, ![4, 2048, 4096]⟩) :
    shapeCast ⟨3, ![4, 2048, 4096]⟩ (lin (shapeCast ⟨2, ![8192, 4096]⟩ x h1) W (shapeCast ⟨2, ![1, 4096]⟩ bias h2) A B) h3
      = out3 x W bias A B := by
  funext i
  obtain ⟨a, s, o, rfl⟩ : ∃ (a : Fin 4) (s : Fin 2048) (o : Fin 4096), i = ix3 a s o := ⟨i 0, i 1, i 2, eq_ix3 i⟩
  rw [out3_ix3, unflat_apply, lin_ix2]
  unfold linAt fullDot out3At
  rw [shapeCast_a_1a_apply]
  simp only [flat_x_apply]

end Cert.LoraSpec

end
-- ==== Proof.WriteBack.lean ====
/-
  From tiles to the whole result.

  The output tile is written back to the [8192, 4096] array exactly at the positions on a last contraction block; the
  tile written at such a position is the layer restricted to the position's rows and columns; every entry of the array
  lies in the tile of one such position (row tile = row / 1024, column tile = column / 1024). So the array ends holding
  the layer on the flattened rows, and the host's final reshape of it to [4, 2048, 4096] is the layer on the arrays as
  the caller passed them.
-/
import proofs.«173166_j17635135717659_1_alg».proof.Proof.Invariant
import proofs.«173166_j17635135717659_1_alg».proof.Proof.Flatten
import Idealize.ShloMosaic.Lib.Pipeline.Value

noncomputable section

open Idealize.ShloMosaic Idealize.ShloMosaic.TcCoe Idealize.SL.Sem Idealize.ShloMosaic.Tactic
open Idealize.ShloMosaic.Pipeline (Dat)

namespace Cert.KernelIdeal.WriteBack

open Cert.KernelIdeal Cert.KernelIdeal.Gen

open Cert.LoraSpec Idealize.ShloMosaic.ValueIdx Cert.KernelIdeal.Blocks Cert.KernelIdeal.Acc

variable (m : (ℓ : Loc nD τ sig) → Buf (Elt Ideal) ℓ)

/-- The layer on the flattened rows, of the arrays as the region finds them. -/
abbrev G (c : Dev nD) : Mat 8192 4096 := lin (X m c) (Wt m c) (Bi m c) (La m c) (Lb m c)

/-- An entry of the tile written at a last-block position is the layer at the entry's place in the array. -/
theorem out_tile (c : Dev nD) (t : Fin cfg0.N) (h1 : t.val % 8 = 7) (y : S1024x1024.Idx) (i : S8192x4096.Idx)
    (hi0 : (i 0).val = t.val / 32 * 1024 + (y 0).val) (hi1 : (i 1).val = t.val / 8 % 4 * 1024 + (y 1).val) :
    (outsAt0 m c t.val t.isLt).1 y = G m c i := by
  have hN : t.val < 256 := lt_of_lt_of_eq t.isLt N_0
  obtain ⟨p, q, rfl⟩ : ∃ (p : Fin 1024) (q : Fin 1024), y = ix2 p q := ⟨y 0, y 1, eq_ix2 y⟩
  obtain ⟨r, o, rfl⟩ : ∃ (r : Fin 8192) (o : Fin 4096), i = ix2 r o := ⟨i 0, i 1, eq_ix2 i⟩
  have er : xrow t.val p = r := Fin.ext (by
    show (t.val / 32 * 1024 + p.val) % 8192 = r.val
    have : r.val = t.val / 32 * 1024 + p.val := hi0
    omega)
  have eo : wcol t.val q = o := Fin.ext (by
    show (t.val / 8 % 4 * 1024 + q.val) % 4096 = o.val
    have : o.val = t.val / 8 % 4 * 1024 + q.val := hi1
    omega)
  rw [out_last m c t h1 p q, er, eo]
  rfl

/-- What a last-block position writes back is its block of the layer. -/
theorem flushed_eq (c : Dev nD) (t : Fin cfg0.N) (hf : (cfg0.win 5).flush t = true) :
    (dats m 0 c).flushed 5 t = ((cfg0.win 5).blk t).view.read (Elt Ideal) (G m c) := by
  have h1 : t.val % 8 = 7 := (flush0_5 t).mp hf
  obtain ⟨_, _, _, _, _, _, _, _, _, _, e50, e51⟩ := idx_facts t
  show (cfg0.win 5).cut (grid0.coords t) ((dats m 0 c).after 5 t) = _
  rw [after0_5]
  funext j
  show (outsAt0 m c t.val t.isLt).1 j = G m c (((cfg0.win 5).blk t).view.emb j)
  exact out_tile m c t h1 j _
    (by show win0_5.index t (0 : Fin 2) * 1024 + 1 * (j 0).val = t.val / 32 * 1024 + (j 0).val; rw [e50]; omega)
    (by show win0_5.index t (1 : Fin 2) * 1024 + 1 * (j 1).val = t.val / 8 % 4 * 1024 + (j 1).val; rw [e51]; omega)

/-- Every entry of the array is in the tile of a last-block position. -/
theorem cover (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 256 := N_0
  obtain ⟨t, ht⟩ : ∃ t : Fin cfg0.N, t.val = (i 0).val / 1024 * 32 + (i 1).val / 1024 * 8 + 7 :=
    ⟨⟨(i 0).val / 1024 * 32 + (i 1).val / 1024 * 8 + 7, by rw [hN]; omega⟩, rfl⟩
  obtain ⟨_, _, _, _, _, _, _, _, _, _, e50, e51⟩ := idx_facts t
  refine ⟨t, (flush0_5 t).mpr (by omega), ?_⟩
  show i ∈ ((View.whole main_v2).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    rw [e50]; omega
  | ⟨1, _⟩ =>
    show win0_5.index t (1 : Fin 2) * 1024 ≤ (i 1).val ∧ (i 1).val < win0_5.index t (1 : Fin 2) * 1024 + 1024
    rw [e51]; omega

/-- The output array ends holding the layer on the flattened rows. -/
theorem final5 (c : Dev nD) : (dats m 0 c).arrAt 5 cfg0.N = G m c :=
  (dats m 0 c).arrAt_eq_of_cover 5 (G m c) (flushed_eq m c) cover

/-- Its reshape to [4, 2048, 4096] is the layer of the arrays as the caller passed them: the region found x flattened
    and the bias as one row, and the other three arrays untouched. -/
theorem result_eq (c : Dev nD) :
    shapeCast S4x2048x4096 (G m c) shapeCasts_S8192x4096_S4x2048x4096
      = out3 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  show shapeCast S4x2048x4096 (lin (V m c main_v0) (V m c main_arg1) (V m c main_v1) (V m c main_arg3) (V m c main_arg4)) _ = _
  rw [V_main_v0, V_main_v1, V_main_arg1, V_main_arg3, V_main_arg4]
  exact flat_eq _ _ _ _ _ _ _ _

end Cert.KernelIdeal.WriteBack

end
-- ==== Proof.Tail.lean ====
/-
  The program around its one kernel region: two reshapes before it, and ONE line after it, which reshapes the region's
  `[8192, 4096]` output array into the `[4, 2048, 4096]` result. Whenever the region leaves some array `G c` in its
  output, every run ends with the result buffer at `G c` read as `[4, 2048, 4096]`, and with the five argument buffers
  as launched.
-/
import proofs.«173166_j17635135717659_1_alg».proof.Proof.Gen.KernelIdeal.Frame
import Idealize.ShloMosaic.Lib.Pipeline.Value
import Idealize.ShloMosaic.Lib.StableHlo.Run
import Idealize.ShloMosaic.Lib.Tactic

noncomputable section

namespace Cert.KernelIdeal.Tail

open Cert.KernelIdeal Cert.KernelIdeal.Gen
open Idealize.ShloMosaic Idealize.ShloMosaic.TcCoe Idealize.SL.Sem
open Idealize.ShloMosaic.Pipeline (Dat)

variable {F : FTy → Type} [FloatOps F] (m : (ℓ : Loc nD τ sig) → Buf (Elt F) ℓ) (ρ : Dev nD → PrngReg)

/-- The line after the region leaves, in the result buffer, the region's output array read as `[4, 2048, 4096]`: the
    reshape's operand is the output window's array, which the region leaves at what the proof data computes. -/
theorem tail_main_v3 (c : Dev nD) :
    Pipeline.afterTail₀ cfgs (dats m) 0 (V0 m) [hostOps1] c main_v3
      = shapeCast S4x2048x4096 ((dats m 0 c).arrAt 5 cfg0.N) shapeCasts_S8192x4096_S4x2048x4096 := by
  unfold Pipeline.afterTail₀
  show StableHlo.after hostOps1 _ (Proc.devRef .tc main_v3) = _
  after_results
  have e := Pipeline.withArrays_arr spec0 launch0.win.arr_inj c (V0 m c) (fun w => (dats m 0 c).arrAt w cfg0.N) 5
  funext i
  exact congrArg (fun y => shapeCast S4x2048x4096 y shapeCasts_S8192x4096_S4x2048x4096 i) e

/-- Every run from zero counters terminates; if the output window's array ends at `G c`, the result buffer ends at
    `G c` read as `[4, 2048, 4096]`, and each argument buffer ends as launched (a staged input's array ends as it
    began; an argument no window stages bypasses the region and is written by no later line). -/
theorem run_of_final (G : (c : Dev nD) → S8192x4096.Idx → Elt F .f32)
    (hfin : ∀ c : Dev nD, (dats m 0 c).arrAt 5 cfg0.N = G c) :
    θ_run defs (onTc (τ := τ) (main (F := F))) ⟨m, fun _ => 0, ρ⟩ (fun r => ∀ c : Dev nD,
      r.2.mem ((c.tc : Thread nD τ).loc main_v3) = shapeCast S4x2048x4096 (G c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans
        ((tail_main_v3 m c).trans (by rw [hfin c])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Tail

end
-- ==== Proof.RefValue.lean ====
/-
  The reference program's result, read index by index, is the layer `Cert.LoraSpec.out3` of its five arguments
  (input, weight, bias, the rank-16 factor applied to the input, the rank-16 factor applied after it): at `(a, s, o)`

      (∑_d x(a, s, d) · W(o, d) + bias(o)) + (∑_k (∑_d x(a, s, d) · A(k, d)) · B(o, k)) · 2 .

  Each operation of the program reads its operands at indices computed from the result's index; at a result index written
  by its coordinates those are again indices written by coordinates, and the chain of reads is the formula.
-/
import proofs.«173166_j17635135717659_1_alg».proof.Proof.Spec
import proofs.«173166_j17635135717659_1_alg».proof.Proof.Gen.ReferenceIdeal.Read

noncomputable section

namespace Cert.ReferenceIdeal.RefValue

open Cert.ReferenceIdeal Cert.ReferenceIdeal.Read Idealize.ShloMosaic Idealize.ShloMosaic.ValueIdx

/-! ## The operand indices at a result index written by its coordinates -/

/-- The first contraction reads the input at `(a, s, d)`. -/
theorem lidx_v0 (a : Fin 4) (s : Fin 2048) (o : Fin 4096) (d : Fin 4096) :
    lidx_main_v0 (ix3 a s o) d = ix3 a s d :=
  funext fun c => by match c with | ⟨0, _⟩ => rfl | ⟨1, _⟩ => rfl | ⟨2, _⟩ => rfl

/-- The first contraction reads the weight at `(o, d)`. -/
theorem ridx_v0 (a : Fin 4) (s : Fin 2048) (o : Fin 4096) (d : Fin 4096) :
    ridx_main_v0 (ix3 a s o) d = ix2 o d :=
  funext fun c => by match c with | ⟨0, _⟩ => rfl | ⟨1, _⟩ => rfl

/-- The two broadcasts of the bias read it at `o`. -/
theorem idx_v1_v2 (a : Fin 4) (s : Fin 2048) (o : Fin 4096) :
    idx_main_v1 (idx_main_v2 (ix3 a s o)) = ix1 o :=
  funext fun c => by match c with | ⟨0, _⟩ => rfl

/-- The contraction over the rank reads the projected input at `(a, s, k)`. -/
theorem lidx_v5 (a : Fin 4) (s : Fin 2048) (o : Fin 4096) (k : Fin 16) :
    lidx_main_v5 (ix3 a s o) k = ix3 a s k :=
  funext fun c => by match c with | ⟨0, _⟩ => rfl | ⟨1, _⟩ => rfl | ⟨2, _⟩ => rfl

/-- The contraction over the rank reads the second factor at `(o, k)`. -/
theorem ridx_v5 (a : Fin 4) (s : Fin 2048) (o : Fin 4096) (k : Fin 16) :
    ridx_main_v5 (ix3 a s o) k = ix2 o k :=
  funext fun c => by match c with | ⟨0, _⟩ => rfl | ⟨1, _⟩ => rfl

/-- The projection onto the rank reads the input at `(a, s, d)`. -/
theorem lidx_v4 (a : Fin 4) (s : Fin 2048) (k : Fin 16) (d : Fin 4096) :
    lidx_main_v4 (ix3 a s k) d = ix3 a s d :=
  funext fun c => by match c with | ⟨0, _⟩ => rfl | ⟨1, _⟩ => rfl | ⟨2, _⟩ => rfl

/-- The projection onto the rank reads the first factor at `(k, d)`. -/
theorem ridx_v4 (a : Fin 4) (s : Fin 2048) (k : Fin 16) (d : Fin 4096) :
    ridx_main_v4 (ix3 a s k) d = ix2 k d :=
  funext fun c => by match c with | ⟨0, _⟩ => rfl | ⟨1, _⟩ => rfl

/-! ## The result -/

theorem ref_eq (x0 : (⟨Cert.ReferenceIdeal.S4x2048x4096, .f32⟩ : BufTy).Contents (Elt Ideal))
    (x1 : (⟨Cert.ReferenceIdeal.S4096x4096, .f32⟩ : BufTy).Contents (Elt Ideal))
    (x2 : (⟨Cert.ReferenceIdeal.S4096, .f32⟩ : BufTy).Contents (Elt Ideal))
    (x3 : (⟨Cert.ReferenceIdeal.S16x4096, .f32⟩ : BufTy).Contents (Elt Ideal))
    (x4 : (⟨Cert.ReferenceIdeal.S4096x16, .f32⟩ : BufTy).Contents (Elt Ideal)) :
    Cert.ReferenceIdeal.Read.val_main_v8 (F := Ideal) x0 x1 x2 x3 x4 = Cert.LoraSpec.out3 x0 x1 x2 x3 x4 := by
  funext i
  obtain ⟨a, s, o, rfl⟩ : ∃ (a : Fin 4) (s : Fin 2048) (o : Fin 4096), i = ix3 a s o := ⟨i 0, i 1, i 2, eq_ix3 i⟩
  rw [Cert.LoraSpec.out3_ix3]
  rw [val_main_v8_apply, val_main_v3_apply, val_main_v7_apply, val_main_v0_apply, val_main_v2_apply,
    val_main_v1_apply, val_main_v5_apply, val_main_v6_apply, val_main_cst_apply]
  simp only [lidx_v0, ridx_v0, idx_v1_v2, lidx_v5, ridx_v5, val_main_v4_apply, lidx_v4, ridx_v4]
  rfl

end Cert.ReferenceIdeal.RefValue

end
-- ==== Proof.lean ====
/-
  A linear layer with a low-rank update,

      y = x · Wᵀ + bias + 2 · ((x · Aᵀ) · Bᵀ),     x : [4, 2048, 4096], W : [4096, 4096], A : [16, 4096], B : [4096, 16],

  computed by a tiled kernel — rows in tiles of 1024, output columns in tiles of 1024, the contraction axis in eight
  blocks of 512 accumulated into two running tiles, the bias, the product with B and the scale applied on the last
  block — against the same layer written as three whole contractions.

  Over the extended reals the two are one function of the arguments, entry by entry: a change of float format is the
  identity, a product into a zero accumulator is the plain sum of products, and the eight blocks' shares added in order
  are the whole sum over the contraction axis because addition is associative and commutative. No law that fails at the
  infinities (distributivity, cancellation) is used, so the finiteness of the inputs is never opened.

  The frames of the two kernel programs are the generated frame certificates; the reference's frame is its generated
  run with the result dropped; the ideal pass rewrote nothing, so there is nothing to preserve. The kernel's value is
  read off the generated frame run: what one visit leaves (Pieces), the recurrence between visits (Steps), where the
  tiles sit (Blocks), the accumulators by induction on the grid position (Invariant), the write-back and the cover
  (WriteBack), the host's reshape after the region (Tail); the reference's value is read through its generated
  read-at-an-index lemmas (RefValue).
-/
import proofs.«173166_j17635135717659_1_alg».proof.Defs
import proofs.«173166_j17635135717659_1_alg».proof.Proof.Gen.Kernel
import proofs.«173166_j17635135717659_1_alg».proof.Proof.Gen.Kernel.Skeleton
import proofs.«173166_j17635135717659_1_alg».proof.Proof.Gen.Kernel.Launch
import proofs.«173166_j17635135717659_1_alg».proof.Proof.Gen.Kernel.Points
import proofs.«173166_j17635135717659_1_alg».proof.Proof.Gen.Kernel.Frame
import proofs.«173166_j17635135717659_1_alg».proof.Proof.Gen.KernelIdeal
import proofs.«173166_j17635135717659_1_alg».proof.Proof.Gen.KernelIdeal.Skeleton
import proofs.«173166_j17635135717659_1_alg».proof.Proof.Gen.KernelIdeal.Launch
import proofs.«173166_j17635135717659_1_alg».proof.Proof.Gen.KernelIdeal.Points
import proofs.«173166_j17635135717659_1_alg».proof.Proof.Gen.KernelIdeal.Frame
import proofs.«173166_j17635135717659_1_alg».proof.Proof.Gen.ReferenceIdeal
import proofs.«173166_j17635135717659_1_alg».proof.Proof.Gen.Pre_finite_inputs
import proofs.«173166_j17635135717659_1_alg».proof.Proof.Gen.ReferenceIdeal.Run
import proofs.«173166_j17635135717659_1_alg».proof.Proof.Gen.ReferenceIdeal.Read
import proofs.«173166_j17635135717659_1_alg».proof.Proof.WriteBack
import proofs.«173166_j17635135717659_1_alg».proof.Proof.Tail
import proofs.«173166_j17635135717659_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- The idealized kernel's run, read: its result array ends holding the layer of the argument arrays, which end unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v3)
        = Cert.LoraSpec.out3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun _ h c => ⟨(h c).1.trans (Cert.KernelIdeal.WriteBack.result_eq m c), (h c).2⟩)
    (Cert.KernelIdeal.Tail.run_of_final m ρ (fun c => Cert.KernelIdeal.WriteBack.G m c) (Cert.KernelIdeal.WriteBack.final5 m))

/-- Both idealized programs, run from memories that agree on the arguments, end with the layer of those arguments in
    their result arrays: the kernel's by its run read above, the reference's by its generated run, whose composed term
    is the layer index by index. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
